-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4194304 : Shape := ⟨2, ![64, 4194304]⟩
abbrev S64 : Shape := ⟨1, ![64]⟩
abbrev S_ : Shape := ⟨0, ![]⟩

class Facts : Prop where
  bcast_S_S64x4194304 : S_.BroadcastsInDim S64x4194304 (![] : Fin 0 → Fin S64x4194304.rank)
  reducesTo_S64x4194304_S_d0_1 : S64x4194304.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x4194304 .f32) (main_arg1 : FVec F S64 .f32) : IVec S_ 1 :=
  let main_v0 : FVec F S64x4194304 .f32 := Host.absf main_arg0
  let main_cst : FVec F S_ .f32 := constant S_ .f32 0x7F800000#32
  let main_v1 : FVec F S64x4194304 .f32 := broadcastInDim S64x4194304 ![] bcast_S_S64x4194304 main_cst
  let main_v2 : IVec S64x4194304 1 := cmpf .olt main_v0 main_v1
  let main_c : IVec S_ 1 := constantI S_ 1 1#1
  let main_v3 : IVec S_ 1 := (fun x v => Host.reduce IntOp.andi x v reducesTo_S64x4194304_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S64x4194304 : Shape := ⟨2, ![64, 4194304]⟩
abbrev S64 : Shape := ⟨1, ![64]⟩
abbrev S_ : Shape := ⟨0, ![]⟩
abbrev S64x64 : Shape := ⟨2, ![64, 64]⟩
abbrev S64x1 : Shape := ⟨2, ![64, 1]⟩
abbrev S64x16384 : Shape := ⟨2, ![64, 16384]⟩
abbrev S16384 : Shape := ⟨1, ![16384]⟩
abbrev S1x16384 : Shape := ⟨2, ![1, 16384]⟩

abbrev nBuf : Space → Nat
  | .hbm => 22
  | .vmem => 6
  | .smem => 0
  | _ => 0

abbrev bufTy : (tb : Table) → Fin (tcTables nBuf tb) → BufTy
  | .hbm, ⟨0, _⟩ => ⟨S64x4194304, .f32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S64x1, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x4194304, .f32⟩
  | .local _ .vmem, ⟨0, _⟩ => ⟨S64x16384, .f32⟩
  | .local _ .vmem, ⟨1, _⟩ => ⟨S64x16384, .f32⟩
  | .local _ .vmem, ⟨2, _⟩ => ⟨S64x64, .f32⟩
  | .local _ .vmem, ⟨3, _⟩ => ⟨S64x1, .f32⟩
  | .local _ .vmem, ⟨4, _⟩ => ⟨S64x16384, .f32⟩
  | .local _ .vmem, ⟨5, _⟩ => ⟨S64x16384, .f32⟩
  | _, _ => ⟨S64x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_0 : Ref sig .tc := ⟨.hbm, 11, rfl⟩
abbrev main_call0_call0_v0 : Ref sig .tc := ⟨.hbm, 12, rfl⟩
abbrev main_call0_call0_v1 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S64_S64_000 : S64.Pads (![0] : Fin 1 → Nat) ![0] ![0] S64
  h_S_ : 0 < S_.numel
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  reducesTo_S64x64_S64_d1 : S64x64.ReducesTo [1] S64
  inb_S64x16384_S64x16384_0_0 : ∀ a, (![0, 0] : Fin 2 → Nat) a + S64x16384.size a ≤ S64x16384.size a
  h_S64x16384 : 0 < S64x16384.numel
  reduces_S64x16384_S16384 : S64x16384.Reduces [0] S16384
  shapeCasts_S16384_S1x16384 : S16384.ShapeCasts S1x16384
  broadcasts_S1x16384_S64x16384 : S1x16384.Broadcasts S64x16384
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S64x4194304.size a
  hwx0_0 : ∀ i : grid0.Coords, EltTy.bits .f32 = 32 ∨ (Rect.block (s := S64x4194304) S64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16384.size a ≤ S64x4194304.size a
  hwx0_3 : ∀ i : grid0.Coords, EltTy.bits .f32 = 32 ∨ (Rect.block (s := S64x4194304) S64x16384.size (cc0_transform_3 i) (hinb0_3 i)).WholeWords (EltTy.packing .f32)

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4194304 : Shape := ⟨2, ![64, 4194304]⟩
abbrev S64 : Shape := ⟨1, ![64]⟩
abbrev S_ : Shape := ⟨0, ![]⟩
abbrev S64x64 : Shape := ⟨2, ![64, 64]⟩
abbrev S64x1 : Shape := ⟨2, ![64, 1]⟩
abbrev S4194304 : Shape := ⟨1, ![4194304]⟩
abbrev S1x4194304 : Shape := ⟨2, ![1, 4194304]⟩

abbrev nBuf : Space → Nat
  | .hbm => 33
  | .vmem => 0
  | .smem => 0
  | _ => 0

abbrev bufTy : (tb : Table) → Fin (tcTables nBuf tb) → BufTy
  | .hbm, ⟨0, _⟩ => ⟨S64x4194304, .f32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S64x1, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S_, .f32⟩
  | .hbm, ⟨19, _⟩ => ⟨S4194304, .f32⟩
  | .hbm, ⟨20, _⟩ => ⟨S1x4194304, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x4194304, .f32⟩
  | .hbm, ⟨25, _⟩ => ⟨S64x4194304, .f32⟩
  | .hbm, ⟨26, _⟩ => ⟨S64x4194304, .f32⟩
  | .hbm, ⟨27, _⟩ => ⟨S64x4194304, .f32⟩
  | .hbm, ⟨28, _⟩ => ⟨S64x4194304, .f32⟩
  | .hbm, ⟨29, _⟩ => ⟨S64x4194304, .f32⟩
  | .hbm, ⟨30, _⟩ => ⟨S64x4194304, .f32⟩
  | .hbm, ⟨31, _⟩ => ⟨S64x4194304, .f32⟩
  | .hbm, ⟨32, _⟩ => ⟨S64x4194304, .f32⟩
  | _, _ => ⟨S64x4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_0 : Ref sig .tc := ⟨.hbm, 11, rfl⟩
abbrev main_call0_call0_v0 : Ref sig .tc := ⟨.hbm, 12, rfl⟩
abbrev main_call0_call0_v1 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]

class Facts₀ : Prop where
  pads_S64_S64_000 : S64.Pads (![0] : Fin 1 → Nat) ![0] ![0] S64
  h_S_ : 0 < S_.numel
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  reducesTo_S64x64_S64_d1 : S64x64.ReducesTo [1] S64
  reducesTo_S64x4194304_S4194304_d0 : S64x4194304.ReducesTo [0] S4194304
  bcast_S4194304_S1x4194304_1 : S4194304.BroadcastsInDim S1x4194304 (![1] : Fin 1 → Fin S1x4194304.rank)
  bcast_S1x4194304_S64x4194304_0_1 : S1x4194304.BroadcastsInDim S64x4194304 (![0, 1] : Fin 2 → Fin S64x4194304.rank)
  bcast_S64x1_S64x4194304_0_1 : S64x1.BroadcastsInDim S64x4194304 (![0, 1] : Fin 2 → Fin S64x4194304.rank)
  dot_S64x64_S64x4194304_S64x4194304_1_0_0_1_n_n_wf : DotDims.WF S64x64 S64x4194304 S64x4194304 [1] [0] [0] [1] [] []

variable [Facts₀]

def dot_S64x64_S64x4194304_S64x4194304_1_0_0_1_n_n : DotDims S64x64 S64x4194304 S64x4194304 where
  lhsContracting := [1]
  rhsContracting := [0]
  lhsNonContracting := [0]
  rhsNonContracting := [1]
  lhsBatch := []
  rhsBatch := []
  wf := dot_S64x64_S64x4194304_S64x4194304_1_0_0_1_n_n_wf

class Facts : Prop extends Facts₀ where

variable [Facts]
-- ==== Proof.Spec.lean ====
/-
  The function both programs compute, index by index on the extended reals.

  For a matrix `x` of `n` rows, a square matrix `E` and a column `M`:

      out (i, j) = log (∑ k, E (i, k) · exp (x (k, j) − mx j)) + M (i, 0) + mx j,      mx j = max over k of x (k, j),

  the maximum taken as the fold of `max` from −∞ over the rows.  An entry of column `j` depends on `x` through column
  `j` alone, which is what lets a block of columns be computed from that block.

  `E` and `M` are themselves computed from a vector `d` by a fixed line of host operations, the same in both programs:
  `A = diag d` (the diagonal selected against a zero matrix), `M = max of A along its rows, kept as a column`,
  `E = exp (A − M)`.  They are carried here as three named functions of `d` and never opened.
-/
import Idealize.ShloMosaic.Lib.ValueIdx
import Idealize.ShloMosaic.PureOps.Ideal.Laws

noncomputable section

namespace Cert.LogMatExp

open Idealize.ShloMosaic Idealize.ShloMosaic.ValueIdx

/-! ## The result, entry by entry -/

/-- The maximum of column `q`: the fold of `max` from −∞ (the f32 word `0xFF800000`) over the rows. -/
def colMax {n b : ℕ} (x : (⟨2, ![n, b]⟩ : Shape).Idx → EReal) (q : Fin b) : EReal :=
  (Finset.univ : Finset (Fin n)).fold max (Ideal.ofBits .f32 0xFF800000#32) fun k => x (ix2 k q)

/-- The entry at row `p`, column `q`. -/
def entry {n b : ℕ} (x : (⟨2, ![n, b]⟩ : Shape).Idx → EReal) (E : (⟨2, ![n, n]⟩ : Shape).Idx → EReal)
    (M : (⟨2, ![n, 1]⟩ : Shape).Idx → EReal) (p : Fin n) (q : Fin b) : EReal :=
  Ideal.log (∑ k : Fin n, E (ix2 p k) * Ideal.exp (x (ix2 k q) - colMax x q)) + M (ix2 p (0 : Fin 1)) + colMax x q

/-- The whole result. -/
def logMatExp {n b : ℕ} (x : (⟨2, ![n, b]⟩ : Shape).Idx → EReal) (E : (⟨2, ![n, n]⟩ : Shape).Idx → EReal)
    (M : (⟨2, ![n, 1]⟩ : Shape).Idx → EReal) : (⟨2, ![n, b]⟩ : Shape).Idx → EReal :=
  fun i => entry x E M (i 0) (i 1)

theorem logMatExp_apply {n b : ℕ} (x : (⟨2, ![n, b]⟩ : Shape).Idx → EReal) (E : (⟨2, ![n, n]⟩ : Shape).Idx → EReal)
    (M : (⟨2, ![n, 1]⟩ : Shape).Idx → EReal) (p : Fin n) (q : Fin b) :
    logMatExp x E M (ix2 p q) = entry x E M p q := rfl

/-- A column's maximum is read off that column: two matrices that agree on column `q` and column `q'` of each other
    have the same maximum there. -/
theorem colMax_congr {n b b' : ℕ} (x : (⟨2, ![n, b]⟩ : Shape).Idx → EReal) (x' : (⟨2, ![n, b']⟩ : Shape).Idx → EReal)
    (q : Fin b) (q' : Fin b') (h : ∀ k : Fin n, x (ix2 k q) = x' (ix2 k q')) : colMax x q = colMax x' q' := by
  unfold colMax
  exact congrArg (Finset.fold max (Ideal.ofBits .f32 0xFF800000#32) · Finset.univ) (funext h)

/-- An entry is read off its column likewise. -/
theorem entry_congr {n b b' : ℕ} (x : (⟨2, ![n, b]⟩ : Shape).Idx → EReal) (x' : (⟨2, ![n, b']⟩ : Shape).Idx → EReal)
    (E : (⟨2, ![n, n]⟩ : Shape).Idx → EReal) (M : (⟨2, ![n, 1]⟩ : Shape).Idx → EReal) (p : Fin n)
    (q : Fin b) (q' : Fin b') (h : ∀ k : Fin n, x (ix2 k q) = x' (ix2 k q')) : entry x E M p q = entry x' E M p q' := by
  unfold entry
  rw [colMax_congr x x' q q' h]
  refine congrArg (fun s => Ideal.log s + M (ix2 p (0 : Fin 1)) + colMax x' q') ?_
  exact Finset.sum_congr rfl fun k _ => by rw [h k]

/-! ## The shared host prefix: the diagonal matrix, its row maxima, the exponentials -/

abbrev Vn : Shape := ⟨1, ![64]⟩
abbrev Sc : Shape := ⟨0, ![]⟩
abbrev Mn : Shape := ⟨2, ![64, 64]⟩
abbrev Cn : Shape := ⟨2, ![64, 1]⟩

/-- The shape relations the prefix's operations cite. -/
structure PrefixFacts : Prop where
  pads : Vn.Pads (![0] : Fin 1 → Nat) ![0] ![0] Vn
  hsc : 0 < Sc.numel
  bScM : Sc.BroadcastsInDim Mn (![] : Fin 0 → Fin Mn.rank)
  bVC : Vn.BroadcastsInDim Cn (![0] : Fin 1 → Fin Cn.rank)
  bCM : Cn.BroadcastsInDim Mn (![0, 1] : Fin 2 → Fin Mn.rank)
  red : Mn.ReducesTo [1] Vn

variable {F : FTy → Type} [FloatOps F]

/-- `diag d`: `d` as a column, broadcast across the columns, selected on the diagonal (row index = column index)
    against a zero matrix. -/
def diagMatrix (hf : PrefixFacts) (d : FVec F Vn .f32) : FVec F Mn .f32 :=
  select (cmpi .eq (addi (iotaInDim Mn 32 0) (broadcastInDim Mn ![] hf.bScM (constantI Sc 32 0#32))) (iotaInDim Mn 32 1))
    (broadcastInDim Mn ![0, 1] hf.bCM (broadcastInDim Cn ![0] hf.bVC
      (pad Vn ![0] ![0] ![0] d (constant Sc .f32 0x00000000#32) hf.pads hf.hsc)))
    (broadcastInDim Mn ![] hf.bScM (constant Sc .f32 0x00000000#32))

/-- The row maxima of `diag d`, kept as a column. -/
def rowMaxColumn (hf : PrefixFacts) (d : FVec F Vn .f32) : FVec F Cn .f32 :=
  broadcastInDim Cn ![0] hf.bVC
    (Host.reduce FloatOps.maximumf (diagMatrix hf d) (constant Sc .f32 0xFF800000#32) hf.red hf.hsc)

/-- `exp (diag d − its row maxima)`. -/
def expMatrix (hf : PrefixFacts) (d : FVec F Vn .f32) : FVec F Mn .f32 :=
  Host.exp (subf (diagMatrix hf d) (broadcastInDim Mn ![0, 1] hf.bCM (rowMaxColumn hf d)))

end Cert.LogMatExp

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.KernelPayload.lean ====
/-
  The kernel body's stored value on one block of 16384 columns is the target function of the three loaded blocks.

  The body takes each column's maximum over the 64 rows, subtracts it, exponentiates, multiplies the 64 × 64 matrix into
  the block on the matrix unit (from a zero accumulator; the operands' change of format is the identity on the extended
  reals), takes the logarithm, and adds back the column of row maxima and the row of column maxima.  Read at row `p`,
  column `q` that is `entry` of the blocks: the product is the sum over the contracted coordinate, the two broadcasts
  read the column at row `p` and the row at column `q`.
-/
import proofs.«143207_j13838384628286_1_alg».proof.Proof.Gen.KernelIdeal.Skeleton
import proofs.«143207_j13838384628286_1_alg».proof.Proof.Spec
import proofs.«143207_j13838384628286_1_alg».proof.Proof.LibRowMax
import proofs.«143207_j13838384628286_1_alg».proof.Proof.LibColumn

noncomputable section

namespace Cert.KernelIdeal.BlockValue

open Cert.KernelIdeal Cert.KernelIdeal.Gen Idealize.ShloMosaic Idealize.ShloMosaic.ValueIdx Cert.LogMatExp

/-- The printed dimension numbers are those of a plain product `[64, 64] × [64, 16384]`. -/
theorem dims_eq : dot_S64x64_S64x16384_S64x16384_1_0_0_1_n_n
    = Cert.LibRowMax.plainDims 64 64 16384 Facts₀.dot_S64x64_S64x16384_S64x16384_1_0_0_1_n_n_wf := rfl

/-- The body's payload at `(p, q)`. -/
theorem payload_apply (x0 : Vec Ideal S64x16384 .f32) (x7 : Vec Ideal S64x64 .f32) (x12 : Vec Ideal S64x1 .f32)
    (p : Fin 64) (q : Fin 16384) : k0_pay1 x0 x7 x12 (ix2 p q) = entry x0 x7 x12 p q := by
  unfold k0_pay1 entry
  refine (addf_apply _ _ (ix2 p q)).trans ?_
  refine congrArg₂ (· + ·) ((addf_apply _ _ (ix2 p q)).trans (congrArg₂ (· + ·) ?_ ?_)) ?_
  · -- the logarithm of the product
    refine congrArg Ideal.log ?_
    rw [dims_eq]
    refine (Cert.LibRowMax.matmul_plain_apply _ none _ _ p q).trans ?_
    refine Finset.sum_congr rfl fun e _ => congrArg₂ (· * ·) ?_ ?_
    · exact congrFun (shapeCast_self x7 _) (ix2 p e)
    · refine congrArg (fun t => Ideal.exp (x0 (ix2 e q) - t)) ?_
      exact Cert.LibRowMax.colMax_broadcastTo_apply x0 _ _ _ _ _ _ e q
  · -- the column of row maxima, at row p
    refine (Cert.LibColumn.broadcastTo_a1_ab_apply _ _ p q).trans ?_
    exact congrFun (shapeCast_self x12 _) (ix2 p (0 : Fin 1))
  · -- the row of column maxima, at column q
    exact Cert.LibRowMax.colMax_broadcastTo_apply x0 _ _ _ _ _ _ p q

/-- The body's payload is the target function of the three blocks. -/
theorem payload_eq (x0 : Vec Ideal S64x16384 .f32) (x7 : Vec Ideal S64x64 .f32) (x12 : Vec Ideal S64x1 .f32) :
    k0_pay1 x0 x7 x12 = logMatExp x0 x7 x12 := by
  funext j
  obtain ⟨p, q, rfl⟩ : ∃ (p : Fin 64) (q : Fin 16384), j = ix2 p q := ⟨j 0, j 1, eq_ix2 j⟩
  exact payload_apply x0 x7 x12 p q

end Cert.KernelIdeal.BlockValue

end
-- ==== Proof.KernelValue.lean ====
/-
  The idealized kernel's result array after the run, as one function of the two argument arrays.

  Grid point `t` (of 256) stages columns `t·16384 … t·16384 + 16383` of the first argument, the whole 64 × 64 matrix of
  exponentials and the whole column of row maxima (the host prefix computed both from the second argument), and writes
  back the same columns of the result.  An entry of column `j` of the target function depends on the first argument
  through column `j` alone, so what point `t` writes is block `t` of the target function of the WHOLE arrays; the 256
  blocks tile the 4194304 columns, so the array ends holding that function.
-/
import proofs.«143207_j13838384628286_1_alg».proof.Proof.Gen.KernelIdeal.Value
import proofs.«143207_j13838384628286_1_alg».proof.Proof.KernelPayload
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.LogMatExp
open Idealize.ShloMosaic.Pipeline (Dat)

variable (m : (ℓ : Loc nD τ sig) → Buf (Elt Ideal) ℓ) (ρ : Dev nD → PrngReg)

/-- The shape relations of the shared prefix, as this program states them. -/
theorem prefixFacts : PrefixFacts :=
  ⟨Facts₀.pads_S64_S64_000, Facts₀.h_S_, Facts₀.bcast_S_S64x64, Facts₀.bcast_S64_S64x1_0, Facts₀.bcast_S64x1_S64x64_0_1,
    Facts₀.reducesTo_S64x64_S64_d1⟩

/-- What the result array ends holding: the target function of the first argument, and of the exponentials and row
    maxima the shared prefix computes from the second. -/
def target (c : Dev nD) : S64x4194304.Idx → EReal :=
  logMatExp (m ((c : Thread nD τ).loc main_arg0)) (expMatrix (F := Ideal) prefixFacts (m ((c : Thread nD τ).loc main_arg1)))
    (rowMaxColumn (F := Ideal) prefixFacts (m ((c : Thread nD τ).loc main_arg1)))

/-! ## What the region finds in the two arrays the host prefix wrote -/

/-- The matrix the second window stages is the prefix's matrix of exponentials. -/
theorem V_expMatrix (c : Dev nD) :
    (V m c main_v5 : S64x64.Idx → EReal) = expMatrix (F := Ideal) prefixFacts (m ((c : Thread nD τ).loc main_arg1)) := by
  dsimp only [Gen.V]
  simp only [Gen.hostOps0, Gen.hostOps0_1, List.flatten_cons, List.flatten_nil, List.append_nil, List.cons_append,
    List.nil_append]
  after_results
  rfl

/-- The column the third window stages is the prefix's column of row maxima. -/
theorem V_rowMaxColumn (c : Dev nD) :
    (V m c main_v2 : S64x1.Idx → EReal) = rowMaxColumn (F := Ideal) prefixFacts (m ((c : Thread nD τ).loc main_arg1)) := by
  dsimp only [Gen.V]
  simp only [Gen.hostOps0, Gen.hostOps0_1, List.flatten_cons, List.flatten_nil, List.append_nil, List.cons_append,
    List.nil_append]
  after_results
  rfl

/-! ## The blocks -/

theorem hz : (![0, 0] : Fin 2 → Nat) = fun _ => 0 := funext fun a => by fin_cases a <;> rfl

/-- The printed index maps, decided over the 256 points: the first argument's block moves with the result's along the
    columns, every other block index is zero, and the result's column block index is the point's position. -/
theorem idx_facts : ∀ t : Fin cfg0.N, win0_0.index t (0 : Fin 2) = 0
    ∧ win0_0.index t (1 : Fin 2) = win0_3.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Every point writes its block back. -/
theorem flush_all : ∀ t : Fin cfg0.N, (cfg0.win 3).flush t = true :=
  (by decide +kernel : ∀ t : Fin grid0.N, (cfg0.win 3).flush t = true)

/-- The second window's block is the whole matrix, at every point. -/
theorem blk1_eq (c : Dev nD) (t : Fin cfg0.N) : (iblk m c 1 t : S64x64.Idx → EReal) = V m c main_v5 := by
  obtain ⟨-, -, e0, e1, -⟩ := idx_facts t
  funext y
  show V m c main_v5 (((cfg0.win 1).blk t).view.emb y) = V m c main_v5 y
  refine congrArg (V m c main_v5) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The third window's block is the whole column, at every point. -/
theorem blk2_eq (c : Dev nD) (t : Fin cfg0.N) : (iblk m c 2 t : S64x1.Idx → EReal) = V m c main_v2 := by
  obtain ⟨-, -, -, -, e0, e1, -⟩ := idx_facts t
  funext y
  show V m c main_v2 (((cfg0.win 2).blk t).view.emb y) = V m c main_v2 y
  refine congrArg (V m c main_v2) (funext fun a => Fin.ext ?_)
  match a with
  | ⟨0, _⟩ => show win0_2.index t (0 : Fin 2) * 64 + 1 * (y 0).val = (y 0).val; omega
  | ⟨1, _⟩ => show win0_2.index t (1 : Fin 2) * 1 + 1 * (y 1).val = (y 1).val; omega

/-- The first window's block at `(k, q)` is the first argument at row `k` of the column the result's block has at `q`. -/
theorem blk0_apply (c : Dev nD) (t : Fin cfg0.N) (k : Fin 64) (q : Fin 16384) (Q : Fin 4194304)
    (hQ : Q.val = win0_3.index t (1 : Fin 2) * 16384 + q.val) :
    (iblk m c 0 t : S64x16384.Idx → EReal) (ix2 k q) = m ((c : Thread nD τ).loc main_arg0) (ix2 k Q) := by
  obtain ⟨e0, e1, -⟩ := idx_facts t
  show V m c main_arg0 (((cfg0.win 0).blk t).view.emb (ix2 k q)) = _
  rw [V_main_arg0]
  refine congrArg (m ((c : Thread nD τ).loc main_arg0)) (funext fun a => Fin.ext ?_)
  match a with
  | ⟨0, _⟩ => show win0_0.index t (0 : Fin 2) * 64 + 1 * k.val = k.val; omega
  | ⟨1, _⟩ => show win0_0.index t (1 : Fin 2) * 16384 + 1 * q.val = Q.val; omega

/-- An entry of a block of columns is the entry of the whole matrix at the block's column. -/
theorem entry_of_block {n b B : ℕ} (xb : (⟨2, ![n, b]⟩ : Shape).Idx → EReal) (X : (⟨2, ![n, B]⟩ : Shape).Idx → EReal)
    (E E' : (⟨2, ![n, n]⟩ : Shape).Idx → EReal) (M M' : (⟨2, ![n, 1]⟩ : Shape).Idx → EReal) (p p' : Fin n)
    (q : Fin b) (Q : Fin B) (hE : E = E') (hM : M = M') (hp : p = p')
    (hx : ∀ k : Fin n, xb (ix2 k q) = X (ix2 k Q)) : entry xb E M p q = entry X E' M' p' Q := by
  subst hE hM hp
  exact entry_congr xb X E M p q Q hx

/-- WHAT POINT `t` WRITES BACK is block `t` of the target function of the whole arrays. -/
theorem flushed_eq (c : Dev nD) (t : Fin cfg0.N) :
    (dats m 0 c).flushed 3 t = ((cfg0.win 3).blk t).view.read (Elt Ideal) (target m c) := by
  rw [Value.flushed3]
  unfold out0_3
  rw [View.canon_unit_zero hz]
  simp only [View.ld_unit_zero (S := S64x16384) hz, View.ld_unit_zero (S := S64x64) hz, View.ld_unit_zero (S := S64x1) hz]
  rw [BlockValue.payload_eq]
  obtain ⟨-, -, -, -, -, -, e6, e7⟩ := idx_facts t
  funext j
  show entry (iblk m c 0 t) (iblk m c 1 t) (iblk m c 2 t) (j 0) (j 1)
    = entry (m ((c : Thread nD τ).loc main_arg0)) (expMatrix (F := Ideal) prefixFacts (m ((c : Thread nD τ).loc main_arg1)))
        (rowMaxColumn (F := Ideal) prefixFacts (m ((c : Thread nD τ).loc main_arg1)))
        ((((cfg0.win 3).blk t).view.emb j) 0) ((((cfg0.win 3).blk t).view.emb j) 1)
  refine entry_of_block _ _ _ _ _ _ _ _ _ _ ((blk1_eq m c t).trans (V_expMatrix m c))
    ((blk2_eq m c t).trans (V_rowMaxColumn m c)) (Fin.ext ?_) (fun k => blk0_apply m c t k (j 1) _ ?_)
  · show (j 0).val = win0_3.index t (0 : Fin 2) * 64 + 1 * (j 0).val
    omega
  · show win0_3.index t (1 : Fin 2) * 16384 + 1 * (j 1).val = win0_3.index t (1 : Fin 2) * 16384 + (j 1).val
    omega

/-- An index of the array is in point `t`'s block iff each coordinate is in the block's range on its axis. -/
theorem mem_blk (t : Fin cfg0.N) (i : S64x4194304.Idx) :
    i ∈ ((cfg0.win 3).blk t).view.set ↔ ∀ a : Fin 2, win0_3.index t a * S64x16384.size a ≤ (i a).val
      ∧ (i a).val < win0_3.index t a * S64x16384.size a + S64x16384.size a := by
  show i ∈ ((View.whole main_v6).slice (win0_3.rect t)).set ↔ _
  rw [View.set_slice_whole, Rect.mem_set_unit]
  exact Iff.rfl

/-- Every index of the array is in some point's block: column `j` is in block `j / 16384`. -/
theorem covered (i : S64x4194304.Idx) :
    ∃ t : Fin cfg0.N, (cfg0.win 3).flush t = true ∧ i ∈ ((cfg0.win 3).blk t).view.set := by
  have hN : cfg0.N = 256 := N_0
  have hi0 : (i 0).val < 64 := (i 0).isLt
  have hi1 : (i 1).val < 4194304 := (i 1).isLt
  let t : Fin cfg0.N := ⟨(i 1).val / 16384, by rw [hN]; omega⟩
  obtain ⟨-, -, -, -, -, -, e6, e7⟩ := idx_facts t
  have e7' : win0_3.index t (1 : Fin 2) = (i 1).val / 16384 := e7
  refine ⟨t, flush_all t, ?_⟩
  rw [mem_blk]
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 16384 ≤ (i 1).val ∧ (i 1).val < win0_3.index t (1 : Fin 2) * 16384 + 16384
    omega

/-- THE ARRAY after the run is the target function. -/
theorem final (c : Dev nD) : (dats m 0 c).arrAt 3 cfg0.N = target m c :=
  (dats m 0 c).arrAt_eq_of_cover 3 (target m c) (fun t _ => flushed_eq m c t) covered

/-- The frame run re-posted: the result array at the target function of the arguments, the arguments unchanged. -/
theorem run : θ_run defs (onTc (τ := τ) (main (F := Ideal))) ⟨m, fun _ => 0, ρ⟩ fun r => ∀ c : Dev nD,
      r.2.mem ((c : Thread nD τ).loc main_v6) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefRun.lean ====
/-
  The reference program's run, read back: its @main is a straight line of 31 host operations once the two outlined
  helper functions are unfolded at their call sites (the diagonal matrix's thirteen lines first), so every weakly
  fair execution terminates with each buffer at the operations' fold over the launch contents.  Read at the result
  buffer that fold is one term of the two arguments: with `E` and `M` the shared prefix's exponentials and row maxima
  of the second argument `d`, and `r` the first argument's column maxima broadcast over the rows,
  `(log (E · exp (x − r)) + M broadcast) + r`.
-/
import proofs.«143207_j13838384628286_1_alg».proof.Proof.Gen.ReferenceIdeal
import proofs.«143207_j13838384628286_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo Cert.LogMatExp

variable {F : FTy → Type} [FloatOps F]

/-- The shape relations of the shared prefix, as this program states them. -/
theorem prefixFacts : PrefixFacts :=
  ⟨Facts₀.pads_S64_S64_000, Facts₀.h_S_, Facts₀.bcast_S_S64x64, Facts₀.bcast_S64_S64x1_0, Facts₀.bcast_S64x1_S64x64_0_1,
    Facts₀.reducesTo_S64x64_S64_d1⟩

/-- @main's operations in order: the diagonal matrix (ten lines of its own, then the select's three), its row maxima,
    the first argument's column maxima, the two differences and exponentials, the product, the logarithm, and the two
    maxima added back. -/
abbrev ops : List (HloOp τ sig (Elt F)) :=
  [ TRef.nullary main_call0.cst (constant S_ .f32 0x00000000#32),
    TRef.binary (.of main_arg1) main_call0.cst main_call0.v0 (fun x v => pad S64 ![0] ![0] ![0] x v Facts₀.pads_S64_S64_000 Facts₀.h_S_),
    TRef.nullary main_call0.v1 (iotaInDim S64x64 32 0),
    TRef.nullary main_call0.v2 (iotaInDim S64x64 32 1),
    TRef.nullary main_call0.c (constantI S_ 32 0#32),
    TRef.unary main_call0.c main_call0.v3 (broadcastInDim S64x64 ![] Facts₀.bcast_S_S64x64),
    TRef.binary main_call0.v1 main_call0.v3 main_call0.v4 addi,
    TRef.binary main_call0.v4 main_call0.v2 main_call0.v5 (cmpi .eq),
    TRef.unary main_call0.v0 main_call0.v6 (broadcastInDim S64x1 ![0] Facts₀.bcast_S64_S64x1_0),
    TRef.nullary main_call0.cst_0 (constant S_ .f32 0x00000000#32),
    TRef.unary main_call0.v6 main_call0.call0.v0 (broadcastInDim S64x64 ![0, 1] Facts₀.bcast_S64x1_S64x64_0_1),
    TRef.unary main_call0.cst_0 main_call0.call0.v1 (broadcastInDim S64x64 ![] Facts₀.bcast_S_S64x64),
    TRef.ternary main_call0.v5 main_call0.call0.v0 main_call0.call0.v1 main_call0.call0.v2 select,
    nullary main_cst (constant S_ .f32 0xFF800000#32),
    binary main_v0 main_cst main_v1 ((fun x v => Host.reduce FloatOps.maximumf x v Facts₀.reducesTo_S64x64_S64_d1 Facts₀.h_S_) : (⟨S64x64, .f32⟩ : BufTy).Contents (Elt F) → (⟨S_, .f32⟩ : BufTy).Contents (Elt F) → (⟨S64, .f32⟩ : BufTy).Contents (Elt F)),
    unary main_v1 main_v2 (broadcastInDim S64x1 ![0] Facts₀.bcast_S64_S64x1_0 : (⟨S64, .f32⟩ : BufTy).Contents (Elt F) → (⟨S64x1, .f32⟩ : BufTy).Contents (Elt F)),
    nullary main_cst_0 (constant S_ .f32 0xFF800000#32),
    binary main_arg0 main_cst_0 main_v3 ((fun x v => Host.reduce FloatOps.maximumf x v Facts₀.reducesTo_S64x4194304_S4194304_d0 Facts₀.h_S_) : (⟨S64x4194304, .f32⟩ : BufTy).Contents (Elt F) → (⟨S_, .f32⟩ : BufTy).Contents (Elt F) → (⟨S4194304, .f32⟩ : BufTy).Contents (Elt F)),
    unary main_v3 main_v4 (broadcastInDim S1x4194304 ![1] Facts₀.bcast_S4194304_S1x4194304_1 : (⟨S4194304, .f32⟩ : BufTy).Contents (Elt F) → (⟨S1x4194304, .f32⟩ : BufTy).Contents (Elt F)),
    unary main_v2 main_v5 (broadcastInDim S64x64 ![0, 1] Facts₀.bcast_S64x1_S64x64_0_1 : (⟨S64x1, .f32⟩ : BufTy).Contents (Elt F) → (⟨S64x64, .f32⟩ : BufTy).Contents (Elt F)),
    binary main_v0 main_v5 main_v6 (subf : (⟨S64x64, .f32⟩ : BufTy).Contents (Elt F) → (⟨S64x64, .f32⟩ : BufTy).Contents (Elt F) → (⟨S64x64, .f32⟩ : BufTy).Contents (Elt F)),
    unary main_v6 main_v7 (Host.exp : (⟨S64x64, .f32⟩ : BufTy).Contents (Elt F) → (⟨S64x64, .f32⟩ : BufTy).Contents (Elt F)),
    unary main_v4 main_v8 (broadcastInDim S64x4194304 ![0, 1] Facts₀.bcast_S1x4194304_S64x4194304_0_1 : (⟨S1x4194304, .f32⟩ : BufTy).Contents (Elt F) → (⟨S64x4194304, .f32⟩ : BufTy).Contents (Elt F)),
    binary main_arg0 main_v8 main_v9 (subf : (⟨S64x4194304, .f32⟩ : BufTy).Contents (Elt F) → (⟨S64x4194304, .f32⟩ : BufTy).Contents (Elt F) → (⟨S64x4194304, .f32⟩ : BufTy).Contents (Elt F)),
    unary main_v9 main_v10 (Host.exp : (⟨S64x4194304, .f32⟩ : BufTy).Contents (Elt F) → (⟨S64x4194304, .f32⟩ : BufTy).Contents (Elt F)),
    binary main_v7 main_v10 main_v11 ((fun l r => Host.dotGeneral dot_S64x64_S64x4194304_S64x4194304_1_0_0_1_n_n none l r) : (⟨S64x64, .f32⟩ : BufTy).Contents (Elt F) → (⟨S64x4194304, .f32⟩ : BufTy).Contents (Elt F) → (⟨S64x4194304, .f32⟩ : BufTy).Contents (Elt F)),
    unary main_v11 main_v12 (Host.log : (⟨S64x4194304, .f32⟩ : BufTy).Contents (Elt F) → (⟨S64x4194304, .f32⟩ : BufTy).Contents (Elt F)),
    unary main_v2 main_v13 (broadcastInDim S64x4194304 ![0, 1] Facts₀.bcast_S64x1_S64x4194304_0_1 : (⟨S64x1, .f32⟩ : BufTy).Contents (Elt F) → (⟨S64x4194304, .f32⟩ : BufTy).Contents (Elt F)),
    binary main_v12 main_v13 main_v14 (addf : (⟨S64x4194304, .f32⟩ : BufTy).Contents (Elt F) → (⟨S64x4194304, .f32⟩ : BufTy).Contents (Elt F) → (⟨S64x4194304, .f32⟩ : BufTy).Contents (Elt F)),
    unary main_v4 main_v15 (broadcastInDim S64x4194304 ![0, 1] Facts₀.bcast_S1x4194304_S64x4194304_0_1 : (⟨S1x4194304, .f32⟩ : BufTy).Contents (Elt F) → (⟨S64x4194304, .f32⟩ : BufTy).Contents (Elt F)),
    binary main_v14 main_v15 main_v16 (addf : (⟨S64x4194304, .f32⟩ : BufTy).Contents (Elt F) → (⟨S64x4194304, .f32⟩ : BufTy).Contents (Elt F) → (⟨S64x4194304, .f32⟩ : BufTy).Contents (Elt F)) ]

set_option maxRecDepth 4096 in
/-- @main is that straight line: the helper functions' bodies unfolded at their calls, the sequencing reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub ..,
    nullary_bufs_sub .., binary_bufs_sub .., unary_bufs_sub .., nullary_bufs_sub .., binary_bufs_sub .., unary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..⟩

/-- The first argument's column maxima, kept as one row and broadcast over the 64 rows. -/
def colMaxRows (x : FVec F S64x4194304 .f32) : FVec F S64x4194304 .f32 :=
  broadcastInDim S64x4194304 ![0, 1] Facts₀.bcast_S1x4194304_S64x4194304_0_1
    (broadcastInDim S1x4194304 ![1] Facts₀.bcast_S4194304_S1x4194304_1
      (Host.reduce FloatOps.maximumf x (constant S_ .f32 0xFF800000#32) Facts₀.reducesTo_S64x4194304_S4194304_d0 Facts₀.h_S_))

/-- The result buffer's term of the two arguments. -/
def result (x : FVec F S64x4194304 .f32) (d : FVec F S64 .f32) : FVec F S64x4194304 .f32 :=
  addf (addf (Host.log (Host.dotGeneral dot_S64x64_S64x4194304_S64x4194304_1_0_0_1_n_n none (expMatrix prefixFacts d)
      (Host.exp (subf x (colMaxRows x)))))
    (broadcastInDim S64x4194304 ![0, 1] Facts₀.bcast_S64x1_S64x4194304_0_1 (rowMaxColumn prefixFacts d))) (colMaxRows x)

set_option maxHeartbeats 1000000 in
/-- The fold at the result buffer is `result` of the arguments' launch contents: each operation's result read at its
    own buffer, the helper functions' typed buffers being the buffers themselves. -/
theorem out_eq (V : Valuation τ sig (Elt F)) :
    after ops V (Proc.devRef .tc main_v16) = result (V (Proc.devRef .tc main_arg0)) (V (Proc.devRef .tc main_arg1)) := by
  after_results_simp
  simp only [TRef.toBuf, TRef.ofBuf, cast_eq]
  rfl

theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

/-- On the one device, for any float values, from any memory with zero counters: every weakly fair execution of @main
    terminates with the result at `result` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result term is the target function of its two arguments.

  Read at row `p`, column `q`: the broadcast column maxima read the fold of `max` over column `q` (the host's
  maximum along the first axis, from the initial value −∞), the host's product is the sum over the contracted
  coordinate of `E (p, e) · exp (x (e, q) − mx q)`, the broadcast column of row maxima reads its entry in row `p`, and
  the host's exponential and logarithm are the extended reals' on both sides.
-/
import proofs.«143207_j13838384628286_1_alg».proof.Proof.RefRun
import proofs.«143207_j13838384628286_1_alg».proof.Proof.LibRowMax

noncomputable section

namespace Cert.ReferenceIdeal.RefValue

open Cert.ReferenceIdeal Cert.ReferenceIdeal.Gen Idealize.ShloMosaic Idealize.ShloMosaic.ValueIdx Cert.LogMatExp

/-- The printed dimension numbers are those of a plain product `[64, 64] × [64, 4194304]`. -/
theorem dims_eq : dot_S64x64_S64x4194304_S64x4194304_1_0_0_1_n_n
    = Cert.LibRowMax.plainDims 64 64 4194304 Facts₀.dot_S64x64_S64x4194304_S64x4194304_1_0_0_1_n_n_wf := rfl

/-- The broadcast column maxima at `(p, q)`: the maximum of column `q`. -/
theorem colMaxRows_apply (x : FVec Ideal S64x4194304 .f32) (p : Fin 64) (q : Fin 4194304) :
    RefRun.colMaxRows x (ix2 p q) = colMax x q := by
  unfold RefRun.colMaxRows colMax
  refine (Cert.LibRowMax.broadcastInDim_1b_ab_apply _ _ p q).trans ?_
  refine (Cert.LibRowMax.broadcastInDim_b_1b_apply _ _ (0 : Fin 1) q).trans ?_
  exact Cert.LibRowMax.hostReduce_max_first x _ _ (by decide) _ q

/-- The reference's result at `(p, q)`. -/
theorem result_apply (x : FVec Ideal S64x4194304 .f32) (d : FVec Ideal S64 .f32) (p : Fin 64) (q : Fin 4194304) :
    RefRun.result x d (ix2 p q)
      = entry x (expMatrix (F := Ideal) RefRun.prefixFacts d) (rowMaxColumn (F := Ideal) RefRun.prefixFacts d) p q := by
  unfold RefRun.result entry
  refine (addf_apply _ _ (ix2 p q)).trans ?_
  refine congrArg₂ (· + ·) ((addf_apply _ _ (ix2 p q)).trans (congrArg₂ (· + ·) ?_ ?_)) (colMaxRows_apply x p q)
  · -- the logarithm of the product
    refine congrArg Ideal.log ?_
    rw [dims_eq]
    refine (Cert.LibRowMax.dotGeneral_plain_apply _ none .single _ _ p q).trans ?_
    exact Finset.sum_congr rfl fun e _ =>
      congrArg (fun t => expMatrix (F := Ideal) RefRun.prefixFacts d (ix2 p e) * Ideal.exp (x (ix2 e q) - t)) (colMaxRows_apply x e q)
  · -- the column of row maxima, at row p
    exact Cert.LibRowMax.broadcastInDim_a1_ab_apply _ _ p q

/-- The reference's result is the target function of its arguments. -/
theorem result_eq (x : FVec Ideal S64x4194304 .f32) (d : FVec Ideal S64 .f32) :
    RefRun.result x d = logMatExp x (expMatrix (F := Ideal) RefRun.prefixFacts d) (rowMaxColumn (F := Ideal) RefRun.prefixFacts d) := by
  funext j
  obtain ⟨p, q, rfl⟩ : ∃ (p : Fin 64) (q : Fin 4194304), j = ix2 p q := ⟨j 0, j 1, eq_ix2 j⟩
  exact result_apply x d p q

end Cert.ReferenceIdeal.RefValue

end
-- ==== Proof.lean ====
/-
  The proof of `Cert.Claim`: a kernel computing `log (exp (A − mA) · exp (x − mx)) + mA + mx` block of columns by
  block of columns, against the same expression over the whole arrays on the host, equal on the extended reals.

  Here `A = diag d` is 64 × 64, `mA` its row maxima kept as a column, `x` is 64 × 4194304 and `mx` its column maxima
  kept as a row.  Both programs build `exp (A − mA)` and `mA` by the same line of host operations, so those are carried
  as two named functions of `d` and never opened.  The kernel walks 256 blocks of 16384 columns; on a block it takes the
  column maxima over the 64 rows, multiplies `exp (A − mA)` into `exp (x − mx)` on the matrix unit (the operands'
  change of format is the identity on the extended reals, the accumulator starts at zero), takes the logarithm and adds
  the two maxima back, in the same order as the host does.  An entry of column `j` depends on `x` through column `j`
  alone, so a block of the result is computed from that block of `x`, and the 256 blocks tile the columns.  No law of
  arithmetic beyond that re-indexing is used: a maximum is the same fold of `max` from −∞ on both sides, a product the
  same sum over the contracted coordinate, and the additions are in the same order; so finiteness of the inputs is
  never opened.

  The frames of the two kernel programs are the generated ones; the reference's frame is its run with the result
  dropped.  No operation of the kernel was rewritten on the way to its idealization, so `preserves` is `True`.
-/
import proofs.«143207_j13838384628286_1_alg».proof.Defs
import proofs.«143207_j13838384628286_1_alg».proof.Proof.Gen.Kernel
import proofs.«143207_j13838384628286_1_alg».proof.Proof.Gen.Kernel.Skeleton
import proofs.«143207_j13838384628286_1_alg».proof.Proof.Gen.Kernel.Launch
import proofs.«143207_j13838384628286_1_alg».proof.Proof.Gen.Kernel.Points
import proofs.«143207_j13838384628286_1_alg».proof.Proof.Gen.Kernel.Frame
import proofs.«143207_j13838384628286_1_alg».proof.Proof.Gen.KernelIdeal
import proofs.«143207_j13838384628286_1_alg».proof.Proof.Gen.KernelIdeal.Skeleton
import proofs.«143207_j13838384628286_1_alg».proof.Proof.Gen.KernelIdeal.Launch
import proofs.«143207_j13838384628286_1_alg».proof.Proof.Gen.KernelIdeal.Points
import proofs.«143207_j13838384628286_1_alg».proof.Proof.Gen.KernelIdeal.Frame
import proofs.«143207_j13838384628286_1_alg».proof.Proof.Gen.KernelIdeal.Value
import proofs.«143207_j13838384628286_1_alg».proof.Proof.Gen.ReferenceIdeal
import proofs.«143207_j13838384628286_1_alg».proof.Proof.Gen.Pre_finite_inputs
import proofs.«143207_j13838384628286_1_alg».proof.Proof.KernelValue
import proofs.«143207_j13838384628286_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation of the kernel was rewritten on the way to its idealization. -/
theorem preserves : Cert.preserves_Kernel_KernelIdeal := trivial

/-- On the extended reals the kernel's result array ends at the target function of its argument arrays, and the
    reference's result is the same function of arguments that agree. -/
theorem algebraic : Cert.algebraic_KernelIdeal_ReferenceIdeal := by
  intro m ρ m' ρ' _ hagree
  refine ⟨fun c => Cert.KernelIdeal.ArrayValue.target m c, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
